-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S1024x1280 : S_.BroadcastsInDim S1024x1280 (![] : Fin 0 → Fin S1024x1280.rank)
  reducesTo_S1024x1280_S_d0_1 : S1024x1280.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x640 .f32) (main_arg1 : IVec S8 32) (main_arg2 : FVec F S8x64x640 .f32) (main_arg3 : IVec S8 32) (main_arg4 : FVec F S1024x1280 .f32) (main_arg5 : FVec F S1024 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x64x640 .f32 := Host.absf main_arg2
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S1024x1280 .f32 := Host.absf main_arg4
  let main_cst_2 : FVec F S_ .f32 := constant S_ .f32 0x7F800000#32
  let main_v10 : FVec F S1024x1280 .f32 := broadcastInDim S1024x1280 ![] bcast_S_S1024x1280 main_cst_2
  let main_v11 : IVec S1024x1280 1 := cmpf .olt main_v9 main_v10
  let main_c_3 : IVec S_ 1 := constantI S_ 1 1#1
  let main_v12 : IVec S_ 1 := (fun x v => Host.reduce IntOp.andi x v reducesTo_S1024x1280_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S1024x640 : Shape := ⟨2, ![1024, 640]⟩
abbrev S640x1024 : Shape := ⟨2, ![640, 1024]⟩
abbrev S1x1024 : Shape := ⟨2, ![1, 1024]⟩
abbrev S8x256x64x1024 : Shape := ⟨4, ![8, 256, 64, 1024]⟩
abbrev S1x32x640 : Shape := ⟨3, ![1, 32, 640]⟩
abbrev S1x64x640 : Shape := ⟨3, ![1, 64, 640]⟩
abbrev S1x32x64x1024 : Shape := ⟨4, ![1, 32, 64, 1024]⟩
abbrev S64x1024 : Shape := ⟨2, ![64, 1024]⟩
abbrev S64x640 : Shape := ⟨2, ![64, 640]⟩
abbrev S32x640 : Shape := ⟨2, ![32, 640]⟩
abbrev S32x1024 : Shape := ⟨2, ![32, 1024]⟩
abbrev S32x1x1024 : Shape := ⟨3, ![32, 1, 1024]⟩
abbrev S1x64x1024 : Shape := ⟨3, ![1, 64, 1024]⟩
abbrev S32x64x1024 : Shape := ⟨3, ![32, 64, 1024]⟩
abbrev S1x1x1024 : Shape := ⟨3, ![1, 1, 1024]⟩
abbrev S131072x1024 : Shape := ⟨2, ![131072, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8x256x640, .f32⟩
  | .hbm, ⟨1, _⟩ => ⟨S8, .i32⟩
  | .hbm, ⟨2, _⟩ => ⟨S8x64x640, .f32⟩
  | .hbm, ⟨3, _⟩ => ⟨S8, .i32⟩
  | .hbm, ⟨4, _⟩ => ⟨S1024x1280, .f32⟩
  | .hbm, ⟨5, _⟩ => ⟨S1024, .f32⟩
  | .hbm, ⟨6, _⟩ => ⟨S1024x640, .f32⟩
  | .hbm, ⟨7, _⟩ => ⟨S1024x640, .f32⟩
  | .hbm, ⟨8, _⟩ => ⟨S640x1024, .f32⟩
  | .hbm, ⟨9, _⟩ => ⟨S640x1024, .bf16⟩
  | .hbm, ⟨10, _⟩ => ⟨S640x1024, .f32⟩
  | .hbm, ⟨11, _⟩ => ⟨S640x1024, .bf16⟩
  | .hbm, ⟨12, _⟩ => ⟨S1x1024, .f32⟩
  | .hbm, ⟨13, _⟩ => ⟨S8x256x64x1024, .f32⟩
  | .hbm, ⟨14, _⟩ => ⟨S131072x1024, .f32⟩
  | .local _ .vmem, ⟨0, _⟩ => ⟨S1x32x640, .f32⟩
  | .local _ .vmem, ⟨1, _⟩ => ⟨S1x32x640, .f32⟩
  | .local _ .vmem, ⟨2, _⟩ => ⟨S1x64x640, .f32⟩
  | .local _ .vmem, ⟨3, _⟩ => ⟨S1x64x640, .f32⟩
  | .local _ .vmem, ⟨4, _⟩ => ⟨S640x1024, .bf16⟩
  | .local _ .vmem, ⟨5, _⟩ => ⟨S640x1024, .bf16⟩
  | .local _ .vmem, ⟨6, _⟩ => ⟨S1x1024, .f32⟩
  | .local _ .vmem, ⟨7, _⟩ => ⟨S1x32x64x1024, .f32⟩
  | .local _ .vmem, ⟨8, _⟩ => ⟨S1x32x64x1024, .f32⟩
  | .local _ .vmem, ⟨9, _⟩ => ⟨S64x1024, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S1024x1280_S1024x640_0_0 : S1024x1280.Slices ![0, 0] S1024x640
  slices_S1024x1280_S1024x640_0_640 : S1024x1280.Slices ![0, 640] S1024x640
  transposes_S1024x640_S640x1024_1_0 : S1024x640.Transposes [1, 0] S640x1024
  bitsLt_bf16_f32 : FTy.bits .bf16 < FTy.bits .f32
  shapeCasts_S1024_S1x1024 : S1024.ShapeCasts S1x1024
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x32x640_S1x32x640_0_0_0 : ∀ a, (![0, 0, 0] : Fin 3 → Nat) a + S1x32x640.size a ≤ S1x32x640.size a
  h_S1x32x640 : 0 < S1x32x640.numel
  shapeCasts_S1x32x640_S32x640 : S1x32x640.ShapeCasts S32x640
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  shapeCasts_S1x1024_S1x1x1024 : S1x1024.ShapeCasts S1x1x1024
  broadcasts_S1x1x1024_S32x64x1024 : S1x1x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  shapeCasts_S8x256x64x1024_S131072x1024 : S8x256x64x1024.ShapeCasts S131072x1024
  dot_S64x640_S640x1024_S64x1024_1_0_0_1_n_n_wf : DotDims.WF S64x640 S640x1024 S64x1024 [1] [0] [0] [1] [] []
  dot_S32x640_S640x1024_S32x1024_1_0_0_1_n_n_wf : DotDims.WF S32x640 S640x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x640.size a ≤ S8x256x640.size a
  hwx0_0 : ∀ i : grid0.Coords, EltTy.bits .f32 = 32 ∨ (Rect.block (s := S8x256x640) S1x32x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x640.size a ≤ S8x64x640.size a
  hwx0_1 : ∀ i : grid0.Coords, EltTy.bits .f32 = 32 ∨ (Rect.block (s := S8x64x640) S1x64x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S640x1024.size a
  hwx0_2 : ∀ i : grid0.Coords, EltTy.bits .bf16 = 32 ∨ (Rect.block (s := S640x1024) S640x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x1024.size a ≤ S640x1024.size a
  hwx0_3 : ∀ i : grid0.Coords, EltTy.bits .bf16 = 32 ∨ (Rect.block (s := S640x1024) S640x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x64x1024.size a ≤ S8x256x64x1024.size a
  hwx0_5 : ∀ i : grid0.Coords, EltTy.bits .f32 = 32 ∨ (Rect.block (s := S8x256x64x1024) S1x32x64x1024.size (cc0_transform_5 i) (hinb0_5 i)).WholeWords (EltTy.packing .f32)

variable [Facts₀]

def dot_S64x640_S640x1024_S64x1024_1_0_0_1_n_n : DotDims S64x640 S640x1024 S64x1024 where
  lhsContracting := [1]
  rhsContracting := [0]
  lhsNonContracting := [0]
  rhsNonContracting := [1]
  lhsBatch := []
  rhsBatch := []
  wf := dot_S64x640_S640x1024_S64x1024_1_0_0_1_n_n_wf
def dot_S32x640_S640x1024_S32x1024_1_0_0_1_n_n : DotDims S32x640 S640x1024 S32x1024 where
  lhsContracting := [1]
  rhsContracting := [0]
  lhsNonContracting := [0]
  rhsNonContracting := [1]
  lhsBatch := []
  rhsBatch := []
  wf := dot_S32x640_S640x1024_S32x1024_1_0_0_1_n_n_wf

abbrev win0_0 : Pipeline.Window sig grid0 :=
  Pipeline.Window.ofSpec (Memref.whole main_arg0) S1x32x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S640x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S640x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S8x256x1x640 : Shape := ⟨4, ![8, 256, 1, 640]⟩
abbrev S8x256x64x640 : Shape := ⟨4, ![8, 256, 64, 640]⟩
abbrev S8x1x64x640 : Shape := ⟨4, ![8, 1, 64, 640]⟩
abbrev S8x256x64x1280 : Shape := ⟨4, ![8, 256, 64, 1280]⟩
abbrev S131072x1280 : Shape := ⟨2, ![131072, 1280]⟩
abbrev S_ : Shape := ⟨0, ![]⟩
abbrev S1280x1024 : Shape := ⟨2, ![1280, 1024]⟩
abbrev S131072x1024 : Shape := ⟨2, ![131072, 1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8, .i32⟩
  | .hbm, ⟨2, _⟩ => ⟨S8x64x640, .f32⟩
  | .hbm, ⟨3, _⟩ => ⟨S8, .i32⟩
  | .hbm, ⟨4, _⟩ => ⟨S1024x1280, .f32⟩
  | .hbm, ⟨5, _⟩ => ⟨S1024, .f32⟩
  | .hbm, ⟨6, _⟩ => ⟨S8x256x1x640, .f32⟩
  | .hbm, ⟨7, _⟩ => ⟨S8x256x64x640, .f32⟩
  | .hbm, ⟨8, _⟩ => ⟨S8x1x64x640, .f32⟩
  | .hbm, ⟨9, _⟩ => ⟨S8x256x64x640, .f32⟩
  | .hbm, ⟨10, _⟩ => ⟨S8x256x64x1280, .f32⟩
  | .hbm, ⟨11, _⟩ => ⟨S131072x1280, .f32⟩
  | .hbm, ⟨12, _⟩ => ⟨S_, .f32⟩
  | .hbm, ⟨13, _⟩ => ⟨S131072x1280, .f32⟩
  | .hbm, ⟨14, _⟩ => ⟨S131072x1280, .f32⟩
  | .hbm, ⟨15, _⟩ => ⟨S1280x1024, .f32⟩
  | .hbm, ⟨16, _⟩ => ⟨S131072x1024, .f32⟩
  | .hbm, ⟨17, _⟩ => ⟨S1x1024, .f32⟩
  | .hbm, ⟨18, _⟩ => ⟨S131072x1024, .f32⟩
  | .hbm, ⟨19, _⟩ => ⟨S131072x1024, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x256x1x640_S8x256x64x640_0_1_2_3 : S8x256x1x640.BroadcastsInDim S8x256x64x640 (![0, 1, 2, 3] : Fin 4 → Fin S8x256x64x640.rank)
  bcast_S8x64x640_S8x1x64x640_0_2_3 : S8x64x640.BroadcastsInDim S8x1x64x640 (![0, 2, 3] : Fin 3 → Fin S8x1x64x640.rank)
  bcast_S8x1x64x640_S8x256x64x640_0_1_2_3 : S8x1x64x640.BroadcastsInDim S8x256x64x640 (![0, 1, 2, 3] : Fin 4 → Fin S8x256x64x640.rank)
  concatenates_S8x256x64x640_S8x256x64x640_S8x256x64x1280_d3 : Shape.Concatenates [S8x256x64x640, S8x256x64x640] S8x256x64x1280 3
  shapeCasts_S8x256x64x1280_S131072x1280 : S8x256x64x1280.ShapeCasts S131072x1280
  bcast_S_S131072x1280 : S_.BroadcastsInDim S131072x1280 (![] : Fin 0 → Fin S131072x1280.rank)
  transposes_S1024x1280_S1280x1024_1_0 : S1024x1280.Transposes [1, 0] S1280x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  dot_S131072x1280_S1280x1024_S131072x1024_1_0_0_1_n_n_wf : DotDims.WF S131072x1280 S1280x1024 S131072x1024 [1] [0] [0] [1] [] []

variable [Facts₀]

def dot_S131072x1280_S1280x1024_S131072x1024_1_0_0_1_n_n : DotDims S131072x1280 S1280x1024 S131072x1024 where
  lhsContracting := [1]
  rhsContracting := [0]
  lhsNonContracting := [0]
  rhsNonContracting := [1]
  lhsBatch := []
  rhsBatch := []
  wf := dot_S131072x1280_S1280x1024_S131072x1024_1_0_0_1_n_n_wf

class Facts : Prop extends Facts₀ where

variable [Facts]
-- ==== Proof.Pieces.lean ====
import proofs.«108868_j83133386981839_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-!
# What one grid point's body leaves behind, as values

The body runs at 64 grid points `(b, ti)`, eight per batch entry. At the first point of a batch entry (`ti = 0`) it
stores the predictor's projection of that batch entry into a scratch buffer and then, like every other point,
stores the output block computed from the encoder block, the two weight halves, the bias row and the scratch.
Here the contents the body leaves are read back as the two stored values themselves:

* at `ti = 0` the scratch ends at `P = (projection of the predictor block)` and the output block at the joint
  sum taken with that same `P` (the scratch is read after it is written);
* at `ti ≠ 0` the scratch is untouched and the output block is the joint sum taken with what the scratch held.
-/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- First point of a batch entry: the scratch ends at the projection of the predictor block `x1` by the second weight
    half `x3`. -/
theorem scratch_first (c : Dev nD) (i : grid0.Coords) (arg2 : Memref sig .tc .vmem S1x32x640 .f32) (harg2 : arg2.IsWhole) (arg3 : Memref sig .tc .vmem S1x64x640 .f32) (harg3 : arg3.IsWhole) (arg4 : Memref sig .tc .vmem S640x1024 .bf16) (harg4 : arg4.IsWhole) (arg5 : Memref sig .tc .vmem S640x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : cond0_0 i) (x0 : Vec F S1x32x640 .f32) (x1 : Vec F S1x64x640 .f32) (x2 : Vec F S640x1024 .bf16) (x3 : Vec F S640x1024 .bf16) (x4 : Vec F S1x1024 .f32) :
    sout0_A_0 c i arg2 harg2 arg3 harg3 arg4 harg4 arg5 harg5 arg6 harg6 arg7 harg7 arg8 harg8 hc0 x0 x1 x2 x3 x4 = k0_pay1 x1 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg3.read_unread, harg5.read_unread, View.ld_unit_zero (S := S1x64x640) hz3,
    View.ld_unit_zero (S := S640x1024) hz2]

/-- First point of a batch entry: the output block is the joint sum of the encoder block `x0` projected by the first
    weight half `x2`, the bias row `x4`, and the projection just stored in the scratch. -/
theorem out_first (c : Dev nD) (i : grid0.Coords) (arg2 : Memref sig .tc .vmem S1x32x640 .f32) (harg2 : arg2.IsWhole) (arg3 : Memref sig .tc .vmem S1x64x640 .f32) (harg3 : arg3.IsWhole) (arg4 : Memref sig .tc .vmem S640x1024 .bf16) (harg4 : arg4.IsWhole) (arg5 : Memref sig .tc .vmem S640x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : cond0_0 i) (x0 : Vec F S1x32x640 .f32) (x1 : Vec F S1x64x640 .f32) (x2 : Vec F S640x1024 .bf16) (x3 : Vec F S640x1024 .bf16) (x4 : Vec F S1x1024 .f32) :
    out0_A_5 c i arg2 harg2 arg3 harg3 arg4 harg4 arg5 harg5 arg6 harg6 arg7 harg7 arg8 harg8 hc0 x0 x1 x2 x3 x4 = k0_pay2 x0 x2 x4 (k0_pay1 x1 x3) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz4, View.readCov_unit_zero (S := S64x1024) _ hz2]
  simp only [View.readAt_eq_ld, harg2.read_unread, harg3.read_unread, harg4.read_unread, harg5.read_unread, harg6.read_unread,
    View.ld_unit_zero (S := S1x32x640) hz3, View.ld_unit_zero (S := S1x64x640) hz3, View.ld_unit_zero (S := S640x1024) hz2,
    View.ld_unit_zero (S := S1x1024) hz2]

/-- A later point of a batch entry: the output block is the joint sum taken with the contents `xs0` the scratch was
    left with. -/
theorem out_later (c : Dev nD) (i : grid0.Coords) (arg2 : Memref sig .tc .vmem S1x32x640 .f32) (harg2 : arg2.IsWhole) (arg3 : Memref sig .tc .vmem S1x64x640 .f32) (harg3 : arg3.IsWhole) (arg4 : Memref sig .tc .vmem S640x1024 .bf16) (harg4 : arg4.IsWhole) (arg5 : Memref sig .tc .vmem S640x1024 .bf16) (harg5 : arg5.IsWhole) (arg6 : Memref sig .tc .vmem S1x1024 .f32) (harg6 : arg6.IsWhole) (arg7 : Memref sig .tc .vmem S1x32x64x1024 .f32) (harg7 : arg7.IsWhole) (arg8 : Memref sig .tc .vmem S64x1024 .f32) (harg8 : arg8.IsWhole) (hc0 : ¬cond0_0 i) (x0 : Vec F S1x32x640 .f32) (x1 : Vec F S1x64x640 .f32) (x2 : Vec F S640x1024 .bf16) (x3 : Vec F S640x1024 .bf16) (x4 : Vec F S1x1024 .f32) (xs0 : Vec F S64x1024 .f32) :
    out0_B_5 c i arg2 harg2 arg3 harg3 arg4 harg4 arg5 harg5 arg6 harg6 arg7 harg7 arg8 harg8 hc0 x0 x1 x2 x3 x4 xs0 = k0_pay2 x0 x2 x4 xs0 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero hz4]
  simp only [View.readAt_eq_ld, harg2.read_unread, harg4.read_unread, harg6.read_unread, harg8.read_unread,
    View.ld_unit_zero (S := S1x32x640) hz3, View.ld_unit_zero (S := S640x1024) hz2,
    View.ld_unit_zero (S := S1x1024) hz2, View.ld_unit_zero (S := S64x1024) hz2]

end Cert.KernelIdeal.Pieces

end
-- ==== Proof.Spec.lean ====
import Idealize.ShloMosaic.PureOps.Ideal
import Idealize.ShloMosaic.Lib.ValueIdx

/-!
# The joint network's output, entry by entry

The joiner applies a rectifier to the concatenation of an encoder frame `src[b, t, :]` (640 numbers) and a
predictor frame `tgt[b, u, :]` (640 numbers), multiplies the 1280 numbers by row `v` of the weight matrix
`W` (1024 × 1280) and adds `bias[v]`. The rectifier acts entry by entry, so the 1280-term sum is the sum over the
encoder half (columns `0 … 639` of `W`) plus the sum over the predictor half (columns `640 … 1279`): the first depends
on `(b, t, v)` only, the second on `(b, u, v)` only. Over the extended reals the splitting of a finite sum into two
consecutive stretches needs nothing but that addition is commutative and associative, so it holds at `±∞` too.
-/

noncomputable section

open scoped BigOperators

namespace Cert.Joint

open Idealize.ShloMosaic Idealize.ShloMosaic.ValueIdx

/-- The rectifier's threshold: the extended real the all-zero word denotes. -/
abbrev zero : EReal := Ideal.ofBits .f32 0x00000000#32

/-- Column `d` of the encoder half of a weight row. -/
abbrev lo (d : Fin 640) : Fin 1280 := ⟨d.val, by have := d.isLt; omega⟩
/-- Column `640 + d`: column `d` of the predictor half of a weight row. -/
abbrev hi (d : Fin 640) : Fin 1280 := ⟨640 + d.val, by have := d.isLt; omega⟩

/-- A sum over the 1280 columns is the sum over the first 640 plus the sum over the last 640. -/
theorem sum_halves (f : Fin 1280 → EReal) : ∑ k : Fin 1280, f k = ∑ d : Fin 640, f (lo d) + ∑ d : Fin 640, f (hi d) :=
  Fin.sum_univ_add (a := 640) (b := 640) f

/-- The encoder's projection: the rectified frame `src[b, t, :]` against the first 640 columns of row `v` of `W`. -/
def enc (src : (⟨3, ![8, 256, 640]⟩ : Shape).Idx → EReal) (W : (⟨2, ![1024, 1280]⟩ : Shape).Idx → EReal)
    (b : Fin 8) (t : Fin 256) (v : Fin 1024) : EReal :=
  ∑ d : Fin 640, max (src (ix3 b t d)) zero * W (ix2 v (lo d))

/-- The predictor's projection: the rectified frame `tgt[b, u, :]` against the last 640 columns of row `v` of `W`. -/
def pred (tgt : (⟨3, ![8, 64, 640]⟩ : Shape).Idx → EReal) (W : (⟨2, ![1024, 1280]⟩ : Shape).Idx → EReal)
    (b : Fin 8) (u : Fin 64) (v : Fin 1024) : EReal :=
  ∑ d : Fin 640, max (tgt (ix3 b u d)) zero * W (ix2 v (hi d))

/-- The joint output at batch `b`, encoder frame `t`, predictor frame `u`, vocabulary entry `v`. -/
def at4 (src : (⟨3, ![8, 256, 640]⟩ : Shape).Idx → EReal) (tgt : (⟨3, ![8, 64, 640]⟩ : Shape).Idx → EReal)
    (W : (⟨2, ![1024, 1280]⟩ : Shape).Idx → EReal) (bias : (⟨1, ![1024]⟩ : Shape).Idx → EReal)
    (b : Fin 8) (t : Fin 256) (u : Fin 64) (v : Fin 1024) : EReal :=
  enc src W b t v + pred tgt W b u v + bias (ix1 v)

/-- The joint output as the four-axis array `[8, 256, 64, 1024]`. -/
def out4 (src : (⟨3, ![8, 256, 640]⟩ : Shape).Idx → EReal) (tgt : (⟨3, ![8, 64, 640]⟩ : Shape).Idx → EReal)
    (W : (⟨2, ![1024, 1280]⟩ : Shape).Idx → EReal) (bias : (⟨1, ![1024]⟩ : Shape).Idx → EReal) :
    (⟨4, ![8, 256, 64, 1024]⟩ : Shape).Idx → EReal :=
  fun y => at4 src tgt W bias (y 0) (y 1) (y 2) (y 3)

/-- The joint output with its first three axes flattened: row `r = (b · 256 + t) · 64 + u` of `[131072, 1024]`. -/
def out2 (src : (⟨3, ![8, 256, 640]⟩ : Shape).Idx → EReal) (tgt : (⟨3, ![8, 64, 640]⟩ : Shape).Idx → EReal)
    (W : (⟨2, ![1024, 1280]⟩ : Shape).Idx → EReal) (bias : (⟨1, ![1024]⟩ : Shape).Idx → EReal) :
    (⟨2, ![131072, 1024]⟩ : Shape).Idx → EReal :=
  fun i => at4 src tgt W bias
    ⟨(i 0).val / 16384, by have h : (i 0).val < 131072 := (i 0).isLt; omega⟩
    ⟨(i 0).val / 64 % 256, Nat.mod_lt _ (by decide)⟩
    ⟨(i 0).val % 64, Nat.mod_lt _ (by decide)⟩
    (i 1)

/-- The whole 1280-column sum the unsplit formulation computes is the two projections added. -/
theorem whole_sum (src : (⟨3, ![8, 256, 640]⟩ : Shape).Idx → EReal) (tgt : (⟨3, ![8, 64, 640]⟩ : Shape).Idx → EReal)
    (W : (⟨2, ![1024, 1280]⟩ : Shape).Idx → EReal) (b : Fin 8) (t : Fin 256) (u : Fin 64) (v : Fin 1024)
    (x : Fin 1280 → EReal) (hlo : ∀ d, x (lo d) = src (ix3 b t d)) (hhi : ∀ d, x (hi d) = tgt (ix3 b u d)) :
    ∑ k : Fin 1280, max (x k) zero * W (ix2 v k) = enc src W b t v + pred tgt W b u v := by
  rw [sum_halves]
  unfold enc pred
  congr 1
  · exact Finset.sum_congr rfl fun d _ => by rw [hlo d]
  · exact Finset.sum_congr rfl fun d _ => by rw [hhi d]

end Cert.Joint

end
-- ==== Proof.LibUnitAxes3.lean ====
import Idealize.ShloMosaic.Lib.Pipeline.Value
import Idealize.ShloMosaic.Lib.ValueIdx

/-!
# Rank-3 arrays with unit axes, read at an index given by coordinates

A matrix `[a, b]` viewed as `[a, 1, b]` (a middle unit axis inserted), a row `[1, b]` viewed as `[1, 1, b]`, and the
three broadcasts of a rank-3 array with one or two unit axes to the full `[a, b, c]`: each reads, at `(i, j, k)`,
the operand at the index that keeps the coordinates on the operand's proper axes and is `0` on its unit axes.
These are the forms an outer sum `s[:, None, :] + p[None, :, :] + bias[None, :, :]` is spelt with.
-/

namespace Idealize.ShloMosaic.ValueIdx

open Idealize.ShloMosaic

variable {α : Type}

/-- An `[a, b]` array cast to `[a, 1, b]` reads, at `(i, u, j)`, the operand at `(i, j)`, whatever the unit
    coordinate `u`: both sit at row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b]` row cast to `[1, 1, b]` reads, at `(u, w, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u w : Fin 1) (j : Fin b) :
    shapeCast ⟨3, ![1, 1, b]⟩ x h (ix3 u w j) = x (ix2 (0 : Fin 1) j) :=
  shapeCast_apply x h _ _ (by
    have hu : u.val = 0 := by omega
    have hw : w.val = 0 := by omega
    rw [Shape.rowMajor_val_three, Shape.rowMajor_val_two]
    show 0 * b + j.val = (u.val * 1 + w.val) * b + j.val
    rw [hu, hw])

/-- An `[a, 1, c]` array broadcast to `[a, b, c]` reads, at `(i, j, k)`, the operand at `(i, 0, k)`: every `j` sees
    the same slab. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.ValueIdx
-- ==== Proof.Payload.lean ====
import proofs.«108868_j83133386981839_2_alg».proof.Proof.Gen.KernelIdeal.Skeleton
import proofs.«108868_j83133386981839_2_alg».proof.Proof.Spec
import proofs.«108868_j83133386981839_2_alg».proof.Proof.LibUnitAxes3
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

/-!
# The body's two stored values, entry by entry, over the extended reals

At the ideal values a change of float format is the identity and a matrix product into a zero accumulator is the
plain sum of products over the contracted axis. So the value stored in the scratch is, at `(u, v)`,
`∑_d max(tgt_block[0, u, d], 0) · W₂[d, v]`, and the value stored in the output block is, at `(0, r, u, v)`,
`(∑_d max(src_block[0, r, d], 0) · W₁[d, v]) + scratch[u, v] + bias[0, v]`: the three summands are a `[32, 1, 1024]`,
a `[1, 64, 1024]` and a `[1, 1, 1024]` array broadcast to `[32, 64, 1024]` and added in that order.
-/

namespace Cert.KernelIdeal.Payload

open Cert.KernelIdeal Cert.KernelIdeal.Gen

theorem lhs64_0 (i : S64x1024.Idx) (q : dot_S64x640_S640x1024_S64x1024_1_0_0_1_n_n.contr.Idx) :
    (dot_S64x640_S640x1024_S64x1024_1_0_0_1_n_n.lhsIdx i q 0).val = (i 0).val := by
  unfold DotDims.lhsIdx
  rw [dif_neg (show ¬(0 : Fin S64x640.rank) ∈ dot_S64x640_S640x1024_S64x1024_1_0_0_1_n_n.lhsBatch by decide),
    dif_pos (show (0 : Fin S64x640.rank) ∈ dot_S64x640_S640x1024_S64x1024_1_0_0_1_n_n.lhsNonContracting by decide)]
  rfl
theorem rhs64_1 (i : S64x1024.Idx) (q : dot_S64x640_S640x1024_S64x1024_1_0_0_1_n_n.contr.Idx) :
    (dot_S64x640_S640x1024_S64x1024_1_0_0_1_n_n.rhsIdx i q 1).val = (i 1).val := by
  unfold DotDims.rhsIdx
  rw [dif_neg (show ¬(1 : Fin S640x1024.rank) ∈ dot_S64x640_S640x1024_S64x1024_1_0_0_1_n_n.rhsBatch by decide),
    dif_pos (show (1 : Fin S640x1024.rank) ∈ dot_S64x640_S640x1024_S64x1024_1_0_0_1_n_n.rhsNonContracting by decide)]
  rfl

/-- A product of a `64 × 640` matrix with a `640 × 1024` matrix accumulated into zeros is, at `(r, v)`, the sum over
    the 640 contracted positions of the products of the entries (no rounding at the ideal values). -/
theorem matmul64_apply (l : FVec Ideal S64x640 .bf16) (w : FVec Ideal S640x1024 .bf16) (r : Fin 64) (v : Fin 1024) :
    matmul dot_S64x640_S640x1024_S64x1024_1_0_0_1_n_n none l w (constant (F := Ideal) S64x1024 .f32 0x00000000#32) (ix2 r v)
      = ∑ d : Fin 640, l (ix2 r d) * w (ix2 d v) := by
  simp only [matmul]
  rw [Ideal.matmul_constant_zero_apply,
    ← Equiv.sum_comp (contrEquiv1 dot_S64x640_S640x1024_S64x1024_1_0_0_1_n_n 640 rfl rfl).symm]
  refine Finset.sum_congr rfl fun k _ => ?_
  have hk := contrEquiv1_symm_val dot_S64x640_S640x1024_S64x1024_1_0_0_1_n_n 640 rfl rfl k
  have el : dot_S64x640_S640x1024_S64x1024_1_0_0_1_n_n.lhsIdx (ix2 r v) ((contrEquiv1 dot_S64x640_S640x1024_S64x1024_1_0_0_1_n_n 640 rfl rfl).symm k) = ix2 r k :=
    funext fun a => Fin.ext (by
      match a with
      | ⟨0, _⟩ => exact lhs64_0 _ _
      | ⟨1, _⟩ => exact (dot_S64x640_S640x1024_S64x1024_1_0_0_1_n_n.lhsIdx_val_of_single rfl _ _).trans hk)
  have er : dot_S64x640_S640x1024_S64x1024_1_0_0_1_n_n.rhsIdx (ix2 r v) ((contrEquiv1 dot_S64x640_S640x1024_S64x1024_1_0_0_1_n_n 640 rfl rfl).symm k) = ix2 k v :=
    funext fun a => Fin.ext (by
      match a with
      | ⟨0, _⟩ => exact (dot_S64x640_S640x1024_S64x1024_1_0_0_1_n_n.rhsIdx_val_of_single rfl _ _).trans hk
      | ⟨1, _⟩ => exact rhs64_1 _ _)
  rw [el, er]

theorem lhs32_0 (i : S32x1024.Idx) (q : dot_S32x640_S640x1024_S32x1024_1_0_0_1_n_n.contr.Idx) :
    (dot_S32x640_S640x1024_S32x1024_1_0_0_1_n_n.lhsIdx i q 0).val = (i 0).val := by
  unfold DotDims.lhsIdx
  rw [dif_neg (show ¬(0 : Fin S32x640.rank) ∈ dot_S32x640_S640x1024_S32x1024_1_0_0_1_n_n.lhsBatch by decide),
    dif_pos (show (0 : Fin S32x640.rank) ∈ dot_S32x640_S640x1024_S32x1024_1_0_0_1_n_n.lhsNonContracting by decide)]
  rfl
theorem rhs32_1 (i : S32x1024.Idx) (q : dot_S32x640_S640x1024_S32x1024_1_0_0_1_n_n.contr.Idx) :
    (dot_S32x640_S640x1024_S32x1024_1_0_0_1_n_n.rhsIdx i q 1).val = (i 1).val := by
  unfold DotDims.rhsIdx
  rw [dif_neg (show ¬(1 : Fin S640x1024.rank) ∈ dot_S32x640_S640x1024_S32x1024_1_0_0_1_n_n.rhsBatch by decide),
    dif_pos (show (1 : Fin S640x1024.rank) ∈ dot_S32x640_S640x1024_S32x1024_1_0_0_1_n_n.rhsNonContracting by decide)]
  rfl

/-- A product of a `32 × 640` matrix with a `640 × 1024` matrix accumulated into zeros is, at `(r, v)`, the sum over
    the 640 contracted positions of the products of the entries (no rounding at the ideal values). -/
theorem matmul32_apply (l : FVec Ideal S32x640 .bf16) (w : FVec Ideal S640x1024 .bf16) (r : Fin 32) (v : Fin 1024) :
    matmul dot_S32x640_S640x1024_S32x1024_1_0_0_1_n_n none l w (constant (F := Ideal) S32x1024 .f32 0x00000000#32) (ix2 r v)
      = ∑ d : Fin 640, l (ix2 r d) * w (ix2 d v) := by
  simp only [matmul]
  rw [Ideal.matmul_constant_zero_apply,
    ← Equiv.sum_comp (contrEquiv1 dot_S32x640_S640x1024_S32x1024_1_0_0_1_n_n 640 rfl rfl).symm]
  refine Finset.sum_congr rfl fun k _ => ?_
  have hk := contrEquiv1_symm_val dot_S32x640_S640x1024_S32x1024_1_0_0_1_n_n 640 rfl rfl k
  have el : dot_S32x640_S640x1024_S32x1024_1_0_0_1_n_n.lhsIdx (ix2 r v) ((contrEquiv1 dot_S32x640_S640x1024_S32x1024_1_0_0_1_n_n 640 rfl rfl).symm k) = ix2 r k :=
    funext fun a => Fin.ext (by
      match a with
      | ⟨0, _⟩ => exact lhs32_0 _ _
      | ⟨1, _⟩ => exact (dot_S32x640_S640x1024_S32x1024_1_0_0_1_n_n.lhsIdx_val_of_single rfl _ _).trans hk)
  have er : dot_S32x640_S640x1024_S32x1024_1_0_0_1_n_n.rhsIdx (ix2 r v) ((contrEquiv1 dot_S32x640_S640x1024_S32x1024_1_0_0_1_n_n 640 rfl rfl).symm k) = ix2 k v :=
    funext fun a => Fin.ext (by
      match a with
      | ⟨0, _⟩ => exact (dot_S32x640_S640x1024_S32x1024_1_0_0_1_n_n.rhsIdx_val_of_single rfl _ _).trans hk
      | ⟨1, _⟩ => exact rhs32_1 _ _)
  rw [el, er]

/-- The predictor's projection of one batch entry, at `(u, v)`: the rectified predictor frame `u` of the block
    against column `v` of the second weight half. -/
theorem pay1_apply (x1 : Vec Ideal S1x64x640 .f32) (x3 : Vec Ideal S640x1024 .bf16) (u : Fin 64) (v : Fin 1024) :
    k0_pay1 (F := Ideal) x1 x3 (ix2 u v) = ∑ d : Fin 640, max (x1 (ix3 (0 : Fin 1) u d)) Cert.Joint.zero * x3 (ix2 d v) := by
  unfold k0_pay1
  rw [shapeCast_self]
  refine (matmul64_apply _ _ u v).trans ?_
  refine Finset.sum_congr rfl fun d _ => ?_
  rw [shapeCast_self]
  show max (shapeCast S64x640 x1 shapeCasts_S1x64x640_S64x640 (ix2 u d)) (Ideal.ofBits .f32 0x00000000#32) * x3 (ix2 d v) = _
  rw [shapeCast_1ab_ab_apply]

/-- The output block at `(0, r, u, v)`: the rectified encoder frame `r` of the block against column `v` of the first
    weight half, plus the scratch at `(u, v)`, plus the bias at `v` — added in that order. -/
theorem pay2_apply (x0 : Vec Ideal S1x32x640 .f32) (x2 : Vec Ideal S640x1024 .bf16) (x4 : Vec Ideal S1x1024 .f32)
    (xs : Vec Ideal S64x1024 .f32) (r : Fin 32) (u : Fin 64) (v : Fin 1024) :
    k0_pay2 (F := Ideal) x0 x2 x4 xs (ix4 (0 : Fin 1) r u v)
      = (∑ d : Fin 640, max (x0 (ix3 (0 : Fin 1) r d)) Cert.Joint.zero * x2 (ix2 d v)) + xs (ix2 u v) + x4 (ix2 (0 : Fin 1) v) := by
  unfold k0_pay2
  rw [shapeCast_abc_1abc_apply, addf_apply, addf_apply, broadcastTo_a1c_abc_apply, broadcastTo_1bc_abc_apply,
    broadcastTo_11c_abc_apply, shapeCast_ab_a1b_apply, shapeCast_ab_1ab_apply, shapeCast_1b_11b_apply, shapeCast_self,
    shapeCast_self, matmul32_apply]
  refine congrArg (fun s => s + xs (ix2 u v) + x4 (ix2 (0 : Fin 1) v)) (Finset.sum_congr rfl fun d _ => ?_)
  show max (shapeCast S32x640 x0 shapeCasts_S1x32x640_S32x640 (ix2 r d)) (Ideal.ofBits .f32 0x00000000#32) * x2 (ix2 d v) = _
  rw [shapeCast_1ab_ab_apply]

end Cert.KernelIdeal.Payload

end
-- ==== Proof.Blocks.lean ====
import proofs.«108868_j83133386981839_2_alg».proof.Proof.Gen.KernelIdeal.Frame
import proofs.«108868_j83133386981839_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

/-!
# The input blocks of a grid point, read as entries of the arguments

Grid point `t = 8·b + ti` (`b` the batch entry, `ti` the position among the eight row tiles of the 256 encoder
frames) stages: rows `32·ti … 32·ti + 31` of `src[b]`; all of `tgt[b]`; and, unmoved, the two transposed halves of
the weight matrix and the bias row, which the host prepares before the region: `W₁[d, v] = W[v, d]`,
`W₂[d, v] = W[v, 640 + d]`, `bias_row[0, v] = bias[v]`.
-/

namespace Cert.KernelIdeal.Blocks

open Cert.KernelIdeal Cert.KernelIdeal.Gen

/-- Where each window's block sits at grid point `t = 8·b + ti`: the encoder block and the output block move with
    `(b, ti)`, the predictor block with `b` alone, the two weight halves and the bias row never move. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val / 8 ∧ win0_5.index t (1 : Fin 4) = t.val % 8
    ∧ win0_5.index t (2 : Fin 4) = 0 ∧ win0_5.index t (3 : Fin 4) = 0 :=
  (by decide +kernel : ∀ t : Fin grid0.N, _)

section AnyValues
variable {F : FTy → Type} [FloatOps F]
variable (m : (ℓ : Loc nD τ sig) → Buf (Elt F) ℓ)

/-- The encoder block at point `t`: row `r` of the block is frame `32·(t mod 8) + r` of batch entry `t / 8`. -/
theorem src_block (c : Dev nD) (t : Fin cfg0.N) (r : Fin 32) (d : Fin 640) (k : S8x256x640.Idx)
    (hk0 : (k 0).val = t.val / 8) (hk1 : (k 1).val = 32 * (t.val % 8) + r.val) (hk2 : (k 2).val = d.val) :
    (iblk m c 0 t : Vec F S1x32x640 .f32) (ix3 (0 : Fin 1) r d)
      = (m ((c : Thread nD τ).loc main_arg0) : S8x256x640.Idx → Elt F .f32) k := by
  obtain ⟨e0, e1, e2, -⟩ := idx_facts t
  unfold iblk
  rw [View.read_apply]
  show V m c main_arg0 _ = m (c.tc.loc main_arg0) _
  rw [V_main_arg0 m c]
  congr 1
  funext a
  apply Fin.ext
  match a with
  | ⟨0, _⟩ => show win0_0.index t 0 * 1 + 1 * 0 = (k 0).val; rw [e0, hk0]; omega
  | ⟨1, _⟩ => show win0_0.index t 1 * 32 + 1 * r.val = (k 1).val; rw [e1, hk1]; omega
  | ⟨2, _⟩ => show win0_0.index t 2 * 640 + 1 * d.val = (k 2).val; rw [e2, hk2]; omega

/-- The predictor block at point `t`: all 64 frames of batch entry `t / 8`. -/
theorem tgt_block (c : Dev nD) (t : Fin cfg0.N) (u : Fin 64) (d : Fin 640) (k : S8x64x640.Idx)
    (hk0 : (k 0).val = t.val / 8) (hk1 : (k 1).val = u.val) (hk2 : (k 2).val = d.val) :
    (iblk m c 1 t : Vec F S1x64x640 .f32) (ix3 (0 : Fin 1) u d)
      = (m ((c : Thread nD τ).loc main_arg2) : S8x64x640.Idx → Elt F .f32) k := by
  obtain ⟨-, -, -, e0, e1, e2, -⟩ := idx_facts t
  unfold iblk
  rw [View.read_apply]
  show V m c main_arg2 _ = m (c.tc.loc main_arg2) _
  rw [V_main_arg2 m c]
  congr 1
  funext a
  apply Fin.ext
  match a with
  | ⟨0, _⟩ => show win0_1.index t 0 * 1 + 1 * 0 = (k 0).val; rw [e0, hk0]; omega
  | ⟨1, _⟩ => show win0_1.index t 1 * 64 + 1 * u.val = (k 1).val; rw [e1, hk1]; omega
  | ⟨2, _⟩ => show win0_1.index t 2 * 640 + 1 * d.val = (k 2).val; rw [e2, hk2]; omega

/-- The first weight-half window holds its whole array at every point. -/
theorem w1_block (c : Dev nD) (t : Fin cfg0.N) (d : Fin 640) (v : Fin 1024) :
    (iblk m c 2 t : Vec F S640x1024 .bf16) (ix2 d v) = (V m c main_v3 : S640x1024.Idx → Elt F .bf16) (ix2 d v) := by
  obtain ⟨-, -, -, -, -, -, e0, e1, -⟩ := idx_facts t
  unfold iblk
  rw [View.read_apply]
  show V m c main_v3 _ = V m c main_v3 _
  congr 1
  funext a
  apply Fin.ext
  match a with
  | ⟨0, _⟩ => show win0_2.index t 0 * 640 + 1 * d.val = d.val; rw [e0]; omega
  | ⟨1, _⟩ => show win0_2.index t 1 * 1024 + 1 * v.val = v.val; rw [e1]; omega

/-- The second weight-half window holds its whole array at every point. -/
theorem w2_block (c : Dev nD) (t : Fin cfg0.N) (d : Fin 640) (v : Fin 1024) :
    (iblk m c 3 t : Vec F S640x1024 .bf16) (ix2 d v) = (V m c main_v5 : S640x1024.Idx → Elt F .bf16) (ix2 d v) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_3.index t 0 * 640 + 1 * d.val = d.val; rw [e0]; omega
  | ⟨1, _⟩ => show win0_3.index t 1 * 1024 + 1 * v.val = v.val; rw [e1]; omega

/-- The bias window holds its whole one-row array at every point. -/
theorem bias_block (c : Dev nD) (t : Fin cfg0.N) (v : Fin 1024) :
    (iblk m c 4 t : Vec F S1x1024 .f32) (ix2 (0 : Fin 1) v) = (V m c main_v6 : S1x1024.Idx → Elt F .f32) (ix2 (0 : Fin 1) v) := by
  obtain ⟨-, -, -, -, -, -, -, -, -, -, e0, e1, -⟩ := idx_facts t
  unfold iblk
  rw [View.read_apply]
  show V m c main_v6 _ = V m c main_v6 _
  congr 1
  funext a
  apply Fin.ext
  match a with
  | ⟨0, _⟩ => show win0_4.index t 0 * 1 + 1 * 0 = 0; rw [e0]
  | ⟨1, _⟩ => show win0_4.index t 1 * 1024 + 1 * v.val = v.val; rw [e1]; omega

end AnyValues

section AtIdeal
variable (m : (ℓ : Loc nD τ sig) → Buf (Elt Ideal) ℓ)

/-- What the first weight-half window's array holds when the region starts: columns `0 … 639` of `W`, transposed
    (the narrowing to the matrix unit's format is the identity at the ideal values). -/
theorem V_w1 (c : Dev nD) : (V m c main_v3 : S640x1024.Idx → EReal)
    = (truncf (F := Ideal) .bf16 (transpose S640x1024 [1, 0] (extractStridedSlice S1024x640 ![0, 0] (m ((c : Thread nD τ).loc main_arg4)) Facts₀.slices_S1024x1280_S1024x640_0_0) Facts₀.transposes_S1024x640_S640x1024_1_0) Facts₀.bitsLt_bf16_f32 : S640x1024.Idx → EReal) := by
  show StableHlo.after hostOps0 (fun b => m (c, b)) (Proc.devRef .tc main_v3) = _
  after_results <;> rfl

/-- What the second weight-half window's array holds: columns `640 … 1279` of `W`, transposed. -/
theorem V_w2 (c : Dev nD) : (V m c main_v5 : S640x1024.Idx → EReal)
    = (truncf (F := Ideal) .bf16 (transpose S640x1024 [1, 0] (extractStridedSlice S1024x640 ![0, 640] (m ((c : Thread nD τ).loc main_arg4)) Facts₀.slices_S1024x1280_S1024x640_0_640) Facts₀.transposes_S1024x640_S640x1024_1_0) Facts₀.bitsLt_bf16_f32 : S640x1024.Idx → EReal) := by
  show StableHlo.after hostOps0 (fun b => m (c, b)) (Proc.devRef .tc main_v5) = _
  after_results <;> rfl

/-- What the bias window's array holds: the bias vector as one row. -/
theorem V_bias (c : Dev nD) : (V m c main_v6 : S1x1024.Idx → EReal)
    = (shapeCast S1x1024 (m ((c : Thread nD τ).loc main_arg5)) Facts₀.shapeCasts_S1024_S1x1024 : S1x1024.Idx → EReal) := by
  show StableHlo.after hostOps0 (fun b => m (c, b)) (Proc.devRef .tc main_v6) = _
  after_results <;> rfl

/-- Entry `(d, v)` of the first weight half is `W[v, d]`. -/
theorem w1_apply (c : Dev nD) (d : Fin 640) (v : Fin 1024) :
    (V m c main_v3 : S640x1024.Idx → EReal) (ix2 d v)
      = (m ((c : Thread nD τ).loc main_arg4) : S1024x1280.Idx → EReal) (ix2 v (Cert.Joint.lo d)) := by
  rw [V_w1 m c, truncf_apply, transpose_ix2_apply]
  exact slice2_axis1_apply 0 _ _ v d (Cert.Joint.lo d) (Nat.zero_add _).symm

/-- Entry `(d, v)` of the second weight half is `W[v, 640 + d]`. -/
theorem w2_apply (c : Dev nD) (d : Fin 640) (v : Fin 1024) :
    (V m c main_v5 : S640x1024.Idx → EReal) (ix2 d v)
      = (m ((c : Thread nD τ).loc main_arg4) : S1024x1280.Idx → EReal) (ix2 v (Cert.Joint.hi d)) := by
  rw [V_w2 m c, truncf_apply, transpose_ix2_apply]
  exact slice2_axis1_apply 640 _ _ v d (Cert.Joint.hi d) rfl

/-- Entry `(0, v)` of the bias row is `bias[v]`. -/
theorem bias_apply (c : Dev nD) (v : Fin 1024) :
    (V m c main_v6 : S1x1024.Idx → EReal) (ix2 (0 : Fin 1) v)
      = (m ((c : Thread nD τ).loc main_arg5) : S1024.Idx → EReal) (ix1 v) := by
  rw [V_bias m c]
  exact shapeCast_a_1a_apply _ _ (0 : Fin 1) v

end AtIdeal

end Cert.KernelIdeal.Blocks

end
-- ==== Proof.Points.lean ====
import proofs.«108868_j83133386981839_2_alg».proof.Proof.Pieces
import proofs.«108868_j83133386981839_2_alg».proof.Proof.Payload
import proofs.«108868_j83133386981839_2_alg».proof.Proof.Blocks

noncomputable section

open scoped BigOperators
open Idealize.ShloMosaic Idealize.ShloMosaic.TcCoe Idealize.SL.Sem Idealize.ShloMosaic.ValueIdx
open Idealize.ShloMosaic.Pipeline (Dat)

/-!
# What the output block and the scratch hold after every grid point

The 64 grid points run in the order `t = 0, 1, …, 63`; point `t` works on batch entry `b = t / 8` and on row tile
`ti = t mod 8` of its encoder frames. The scratch is written only at `ti = 0` and the next seven points of the same
batch entry read it, so by induction on `t` the scratch after point `t` is the predictor's projection of batch entry
`t / 8` (at `ti ≠ 0` one has `(t − 1) / 8 = t / 8`). With that, the block point `t` writes is
`enc(b, 32·ti + r, v) + pred(b, u, v) + bias(v)` at `(r, u, v)`.
-/

namespace Cert.KernelIdeal.Points

open Cert.KernelIdeal Cert.KernelIdeal.Gen

variable (m : (ℓ : Loc nD τ sig) → Buf (Elt Ideal) ℓ)

/-- The four arguments as the launch finds them, as arrays of extended reals. -/
abbrev src (c : Dev nD) : S8x256x640.Idx → EReal := m ((c : Thread nD τ).loc main_arg0)
abbrev tgt (c : Dev nD) : S8x64x640.Idx → EReal := m ((c : Thread nD τ).loc main_arg2)
abbrev wgt (c : Dev nD) : S1024x1280.Idx → EReal := m ((c : Thread nD τ).loc main_arg4)
abbrev bias (c : Dev nD) : S1024.Idx → EReal := m ((c : Thread nD τ).loc main_arg5)

/-- The batch entry grid point `n` works on: `n / 8`. -/
abbrev batchOf (n : ℕ) (h : n < cfg0.N) : Fin 8 := ⟨n / 8, by have hN : cfg0.N = 64 := N_0; omega⟩
/-- The encoder frame row `r` of point `n`'s block is: `32 · (n mod 8) + r`. -/
abbrev frameOf (n : ℕ) (r : Fin 32) : Fin 256 := ⟨32 * (n % 8) + r.val, by have := r.isLt; omega⟩

/-- At the first point of a batch entry the body leaves the pair (output block, scratch) computed from the point's
    blocks alone. -/
theorem at_first (c : Dev nD) (t : Fin cfg0.N) (h0 : t.val % 8 = 0) :
    outsAt0 m c t.val t.isLt
      = (k0_pay2 (iblk m c 0 t) (iblk m c 2 t) (iblk m c 4 t) (k0_pay1 (iblk m c 1 t) (iblk m c 3 t)),
          k0_pay1 (iblk m c 1 t) (iblk m c 3 t)) := by
  rw [outsAt0_A m c t h0,
    Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t),
    Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)]

/-- At a later point the scratch keeps what the point before left, and the output block is computed with it. -/
theorem at_later (c : Dev nD) (t : Fin cfg0.N) (h0 : ¬t.val % 8 = 0) :
    outsAt0 m c t.val t.isLt
      = (k0_pay2 (iblk m c 0 t) (iblk m c 2 t) (iblk m c 4 t)
            (outsAt0 m c (t.val - 1) (Nat.lt_of_le_of_lt (Nat.sub_le _ _) t.isLt)).2,
          (outsAt0 m c (t.val - 1) (Nat.lt_of_le_of_lt (Nat.sub_le _ _) t.isLt)).2) := by
  rw [outsAt0_B m c t h0,
    Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2]
  rfl

/-- The projection the first point of a batch entry stores is the predictor's projection of that batch entry. -/
theorem proj_apply (c : Dev nD) (t : Fin cfg0.N) (u : Fin 64) (v : Fin 1024) :
    k0_pay1 (F := Ideal) (iblk m c 1 t) (iblk m c 3 t) (ix2 u v)
      = Cert.Joint.pred (tgt m c) (wgt m c) (batchOf t.val t.isLt) u v := by
  refine (Payload.pay1_apply (iblk m c 1 t) (iblk m c 3 t) u v).trans ?_
  unfold Cert.Joint.pred
  refine Finset.sum_congr rfl fun d _ => ?_
  rw [Blocks.tgt_block m c t u d (ix3 (batchOf t.val t.isLt) u d) rfl rfl rfl, Blocks.w2_block m c t d v,
    Blocks.w2_apply m c d v]

/-- The scratch carried between points: after grid point `n` it holds the predictor's projection of batch entry `n / 8` — stored
    at the batch entry's first point and kept by its seven later points. -/
theorem scratch_eq (c : Dev nD) : ∀ (n : ℕ) (h : n < cfg0.N) (u : Fin 64) (v : Fin 1024),
    (outsAt0 m c n h).2 (ix2 u v) = Cert.Joint.pred (tgt m c) (wgt m c) (batchOf n h) u v
  | 0, h, u, v => by
    rw [show outsAt0 m c 0 h = _ from at_first m c ⟨0, h⟩ rfl]
    exact proj_apply m c ⟨0, h⟩ u v
  | n + 1, h, u, v => by
    by_cases h0 : (n + 1) % 8 = 0
    · rw [show outsAt0 m c (n + 1) h = _ from at_first m c ⟨n + 1, h⟩ h0]
      exact proj_apply m c ⟨n + 1, h⟩ u v
    · rw [show outsAt0 m c (n + 1) h = _ from at_later m c ⟨n + 1, h⟩ h0]
      show (outsAt0 m c n _).2 (ix2 u v) = _
      rw [scratch_eq c n _ u v]
      exact congrArg (fun b => Cert.Joint.pred (tgt m c) (wgt m c) b u v) (Fin.ext (by show n / 8 = (n + 1) / 8; omega))

/-- The encoder part of the output block, with whatever the scratch holds. -/
theorem block_apply (c : Dev nD) (t : Fin cfg0.N) (xs : Vec Ideal S64x1024 .f32) (r : Fin 32) (u : Fin 64) (v : Fin 1024) :
    k0_pay2 (F := Ideal) (iblk m c 0 t) (iblk m c 2 t) (iblk m c 4 t) xs (ix4 (0 : Fin 1) r u v)
      = Cert.Joint.enc (src m c) (wgt m c) (batchOf t.val t.isLt) (frameOf t.val r) v + xs (ix2 u v) + bias m c (ix1 v) := by
  refine (Payload.pay2_apply (iblk m c 0 t) (iblk m c 2 t) (iblk m c 4 t) xs r u v).trans ?_
  rw [Blocks.bias_block m c t v, Blocks.bias_apply m c v]
  refine congrArg (fun s => s + xs (ix2 u v) + bias m c (ix1 v)) ?_
  unfold Cert.Joint.enc
  refine Finset.sum_congr rfl fun d _ => ?_
  rw [Blocks.src_block m c t r d (ix3 (batchOf t.val t.isLt) (frameOf t.val r) d) rfl rfl rfl, Blocks.w1_block m c t d v,
    Blocks.w1_apply m c d v]

/-- The output block of grid point `t`: entry `(0, r, u, v)` is the joint output at batch entry `t / 8`, encoder
    frame `32 · (t mod 8) + r`, predictor frame `u`, vocabulary entry `v`. -/
theorem out_apply (c : Dev nD) (t : Fin cfg0.N) (r : Fin 32) (u : Fin 64) (v : Fin 1024) :
    (outsAt0 m c t.val t.isLt).1 (ix4 (0 : Fin 1) r u v)
      = Cert.Joint.at4 (src m c) (tgt m c) (wgt m c) (bias m c) (batchOf t.val t.isLt) (frameOf t.val r) u v := by
  unfold Cert.Joint.at4
  by_cases h0 : t.val % 8 = 0
  · rw [at_first m c t h0]
    show k0_pay2 (F := Ideal) (iblk m c 0 t) (iblk m c 2 t) (iblk m c 4 t) (k0_pay1 (iblk m c 1 t) (iblk m c 3 t)) (ix4 (0 : Fin 1) r u v) = _
    rw [block_apply, proj_apply]
  · rw [at_later m c t h0]
    show k0_pay2 (F := Ideal) (iblk m c 0 t) (iblk m c 2 t) (iblk m c 4 t) (outsAt0 m c (t.val - 1) _).2 (ix4 (0 : Fin 1) r u v) = _
    rw [block_apply, scratch_eq]
    have hb : batchOf (t.val - 1) (Nat.lt_of_le_of_lt (Nat.sub_le _ _) t.isLt) = batchOf t.val t.isLt :=
      Fin.ext (by show (t.val - 1) / 8 = t.val / 8; omega)
    rw [hb]

end Cert.KernelIdeal.Points

end
-- ==== Proof.KernelValue.lean ====
import proofs.«108868_j83133386981839_2_alg».proof.Proof.Points

noncomputable section

open Idealize.ShloMosaic Idealize.ShloMosaic.TcCoe Idealize.SL.Sem Idealize.ShloMosaic.ValueIdx
open Idealize.ShloMosaic.Pipeline (Dat)

/-!
# The idealized kernel computes the joint output

Each of the 64 grid points writes back one `[1, 32, 64, 1024]` block of the `[8, 256, 64, 1024]` output array; the
blocks are disjoint and tile the array (entry `(b, f, u, v)` lies in the block of point `8·b + f / 32`), and the
block of point `t` is the joint output restricted to batch entry `t / 8` and frames `32·(t mod 8) … + 31`. So the
array ends at the joint output, and the host's final reshape flattens `(b, f, u)` to the row
`(b · 256 + f) · 64 + u`.
-/

namespace Cert.KernelIdeal.JointValue

open Cert.KernelIdeal Cert.KernelIdeal.Gen Cert.KernelIdeal.Points

variable (m : (ℓ : Loc nD τ sig) → Buf (Elt Ideal) ℓ) (ρ : Dev nD → PrngReg)

/-- The four-axis result array: the joint output of the launch's arguments. -/
abbrev result4 (c : Dev nD) : S8x256x64x1024.Idx → EReal :=
  Cert.Joint.out4 (src m c) (tgt m c) (wgt m c) (bias m c)

/-- The output block of point `t` at a block index `y` is the result array at the array index `i` that block
    index sits at: batch entry `t / 8`, frame `32 · (t mod 8) + y₁`, and `y₂`, `y₃` unchanged. -/
theorem out_at (c : Dev nD) (t : Fin cfg0.N) (y : S1x32x64x1024.Idx) (i : S8x256x64x1024.Idx)
    (h0 : (i 0).val = t.val / 8) (h1 : (i 1).val = 32 * (t.val % 8) + (y 1).val) (h2 : (i 2).val = (y 2).val)
    (h3 : (i 3).val = (y 3).val) :
    (outsAt0 m c t.val t.isLt).1 y = result4 m c i := by
  obtain ⟨a, r, u, v, rfl⟩ : ∃ (a : Fin 1) (r : Fin 32) (u : Fin 64) (v : Fin 1024), y = ix4 a r u v :=
    ⟨y 0, y 1, y 2, y 3, eq_ix4 y⟩
  obtain ⟨b, f, u', v', rfl⟩ : ∃ (b : Fin 8) (f : Fin 256) (u' : Fin 64) (v' : Fin 1024), i = ix4 b f u' v' :=
    ⟨i 0, i 1, i 2, i 3, eq_ix4 i⟩
  obtain rfl : a = 0 := Subsingleton.elim _ _
  obtain rfl : b = batchOf t.val t.isLt := Fin.ext h0
  obtain rfl : f = frameOf t.val r := Fin.ext h1
  obtain rfl : u' = u := Fin.ext h2
  obtain rfl : v' = v := Fin.ext h3
  exact out_apply m c t r _ _

/-- WHAT POINT `t` WRITES BACK is block `t` of the result array. -/
theorem flushed_eq (c : Dev nD) (t : Fin cfg0.N) :
    (dats m 0 c).flushed 5 t = ((cfg0.win 5).blk t).view.read (Elt Ideal) (result4 m c) := by
  show (cfg0.win 5).cut (grid0.coords t) ((dats m 0 c).after 5 t) = _
  rw [after0_5]
  obtain ⟨-, -, -, -, -, -, -, -, -, -, -, -, e0, e1, e2, e3⟩ := Blocks.idx_facts t
  funext y
  show (outsAt0 m c t.val t.isLt).1 y = result4 m c (((cfg0.win 5).blk t).view.emb y)
  have hy0 : (y 0).val < 1 := (y 0).isLt
  refine out_at m c t y _ ?_ ?_ ?_ ?_
  · show win0_5.index t 0 * 1 + 1 * (y 0).val = t.val / 8
    rw [e0]; omega
  · show win0_5.index t 1 * 32 + 1 * (y 1).val = 32 * (t.val % 8) + (y 1).val
    rw [e1]; omega
  · show win0_5.index t 2 * 64 + 1 * (y 2).val = (y 2).val
    rw [e2]; omega
  · show win0_5.index t 3 * 1024 + 1 * (y 3).val = (y 3).val
    rw [e3]; omega

/-- Every entry of the result array lies in the block of exactly the point its batch entry and frame name:
    `t = 8·b + frame / 32`. -/
theorem cover (i : S8x256x64x1024.Idx) :
    ∃ t : Fin cfg0.N, (cfg0.win 5).flush t = true ∧ i ∈ ((cfg0.win 5).blk t).view.set := by
  have h0 : (i 0).val < 8 := (i 0).isLt
  have h1 : (i 1).val < 256 := (i 1).isLt
  have h2 : (i 2).val < 64 := (i 2).isLt
  have h3 : (i 3).val < 1024 := (i 3).isLt
  have hN : cfg0.N = 64 := N_0
  obtain ⟨t, ht⟩ : ∃ t : Fin cfg0.N, t.val = 8 * (i 0).val + (i 1).val / 32 := ⟨⟨_, by omega⟩, rfl⟩
  obtain ⟨-, -, -, -, -, -, -, -, -, -, -, -, e0, e1, e2, e3⟩ := Blocks.idx_facts t
  refine ⟨t, flush0_5 t, ?_⟩
  show i ∈ ((View.whole main_v7).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [e0, ht]; omega
  | ⟨1, _⟩ =>
    show win0_5.index t 1 * 32 ≤ (i 1).val ∧ (i 1).val < win0_5.index t 1 * 32 + 32
    rw [e1, ht]; omega
  | ⟨2, _⟩ =>
    show win0_5.index t 2 * 64 ≤ (i 2).val ∧ (i 2).val < win0_5.index t 2 * 64 + 64
    rw [e2]; omega
  | ⟨3, _⟩ =>
    show win0_5.index t 3 * 1024 ≤ (i 3).val ∧ (i 3).val < win0_5.index t 3 * 1024 + 1024
    rw [e3]; omega

/-- So the kernel's output array ends holding the joint output. -/
theorem final (c : Dev nD) : (dats m 0 c).arrAt 5 cfg0.N = result4 m c :=
  (dats m 0 c).arrAt_eq_of_cover 5 (result4 m c) (fun t _ => flushed_eq m c t) cover

/-- Flattening the first three axes of the four-axis joint output gives the two-axis one: row
    `r = (b · 256 + t) · 64 + u`. -/
theorem flat_eq (c : Dev nD) :
    shapeCast S131072x1024 (result4 m c) Facts₀.shapeCasts_S8x256x64x1024_S131072x1024
      = Cert.Joint.out2 (src m c) (tgt m c) (wgt m c) (bias m c) := by
  funext i
  obtain ⟨r, v, rfl⟩ : ∃ (r : Fin 131072) (v : Fin 1024), i = ix2 r v := ⟨i 0, i 1, eq_ix2 i⟩
  have hr := r.isLt
  refine (shapeCast_apply _ _ (ix2 r v) (ix4 (⟨r.val / 16384, by omega⟩ : Fin 8)
    (⟨r.val / 64 % 256, Nat.mod_lt _ (by decide)⟩ : Fin 256) (⟨r.val % 64, Nat.mod_lt _ (by decide)⟩ : Fin 64) v) ?_).trans rfl
  rw [Shape.rowMajor_val_four, Shape.rowMajor_val_two]
  show ((r.val / 16384 * 256 + r.val / 64 % 256) * 64 + r.val % 64) * 1024 + v.val = r.val * 1024 + v.val
  omega

/-- The host's reshape after the region reads the output array the region left. -/
theorem tail_eq (c : Dev nD) :
    Pipeline.afterTail₀ cfgs (dats m) 0 (V0 m) [hostOps1] c main_v8
      = Cert.Joint.out2 (src m c) (tgt m c) (wgt m c) (bias m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = result4 m c :=
    (Pipeline.withArrays_arr spec0 launch0.win.arr_inj c _ _ 5).trans (final m c)
  rw [e]
  exact flat_eq m c

/-- The idealized kernel's run, read: every weakly fair execution terminates with the result at the joint output of the
    launch's arguments, the two length vectors passed through, and the six arguments unchanged. -/
theorem run : θ_run (defs (F := Ideal)) (onTc (τ := τ) (main (F := Ideal))) ⟨m, fun _ => 0, ρ⟩ fun r => ∀ c : Dev nD,
      r.2.mem ((c.tc : Thread nD τ).loc main_v8) = Cert.Joint.out2 (src m c) (tgt m c) (wgt m c) (bias m c)
      ∧ r.2.mem ((c.tc : Thread nD τ).loc main_arg1) = m ((c.tc : Thread nD τ).loc main_arg1)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have k0 := ((h c).1 0).trans (((dats m 0 c).arrAt_in 0 rfl _).trans ((A_eq m c 0).trans (V_main_arg0 m c)))
    have k1 := ((h c).2 main_arg1 (Pipeline.mem_restRefs_of main_arg1 (by decide) (by decide))).trans (W_main_arg1 m (dats m) c)
    have k2 := ((h c).1 1).trans (((dats m 0 c).arrAt_in 1 rfl _).trans ((A_eq m c 1).trans (V_main_arg2 m c)))
    have k3 := ((h c).2 main_arg3 (Pipeline.mem_restRefs_of main_arg3 (by decide) (by decide))).trans (W_main_arg3 m (dats m) c)
    have k4 := ((h c).2 main_arg4 (Pipeline.mem_restRefs_of main_arg4 (by decide) (by decide))).trans (W_main_arg4 m (dats m) c)
    have k5 := ((h c).2 main_arg5 (Pipeline.mem_restRefs_of main_arg5 (by decide) (by decide))).trans (W_main_arg5 m (dats m) c)
    ⟨((h c).2 main_v8 (Pipeline.mem_restRefs_of main_v8 (by decide) (by decide))).trans (tail_eq m c),
      k1, k3, k0, k1, k2, k3, k4, k5⟩) (run_main m ρ)

end Cert.KernelIdeal.JointValue

end
-- ==== Proof.RefValue.lean ====
import proofs.«108868_j83133386981839_2_alg».proof.Proof.Gen.ReferenceIdeal.Read
import proofs.«108868_j83133386981839_2_alg».proof.Proof.Spec
import Idealize.ShloMosaic.Lib.Pipeline.Value
import Idealize.ShloMosaic.Lib.ValueIdx

noncomputable section

open scoped BigOperators
open Idealize.ShloMosaic Idealize.ShloMosaic.ValueIdx

/-!
# The reference computes the joint output

The reference broadcasts the encoder frames over the predictor axis and the predictor frames over the encoder axis,
concatenates the two along the feature axis (1280 features), flattens `(b, t, u)` to one row index, rectifies, and
multiplies by `Wᵀ`: entry `(r, v)` is `∑_{k < 1280} max(x[r, k], 0) · W[v, k] + bias[v]`. The first 640 features of
row `r = (b·256 + t)·64 + u` are `src[b, t, :]`, the last 640 are `tgt[b, u, :]`, so the sum is the encoder
projection plus the predictor projection.
-/

namespace Cert.ReferenceIdeal.JointValue

open Cert.ReferenceIdeal Cert.ReferenceIdeal.Gen Cert.ReferenceIdeal.Read

variable (x0 : (⟨S8x256x640, .f32⟩ : BufTy).Contents (Elt Ideal)) (x2 : (⟨S8x64x640, .f32⟩ : BufTy).Contents (Elt Ideal))
  (x4 : (⟨S1024x1280, .f32⟩ : BufTy).Contents (Elt Ideal)) (x5 : (⟨S1024, .f32⟩ : BufTy).Contents (Elt Ideal))

/-- The first 640 columns of the concatenated input at `(b, t, u)` are the encoder frame `src[b, t, :]`, whatever `u`. -/
theorem concat_lo (b : Fin 8) (t : Fin 256) (u : Fin 64) (d : Fin 640) :
    val_main_v4 (F := Ideal) x0 x2 (ix4 b t u (Cert.Joint.lo d)) = x0 (ix3 b t d) := by
  unfold val_main_v4
  refine (concatenate_pair_apply_left (t := S8x256x64x1280) (s₁ := S8x256x64x640) (s₂ := S8x256x64x640) 3 _ _ _ (ix4 b t u (Cert.Joint.lo d)) rfl (ix4 b t u d) (fun a => by
    match a with
    | ⟨0, _⟩ => rfl
    | ⟨1, _⟩ => rfl
    | ⟨2, _⟩ => rfl
    | ⟨3, _⟩ => rfl)).trans ?_
  rw [val_main_v1_apply, val_main_v0_apply]
  exact congrArg x0 (funext fun a => Fin.ext (by
    match a with
    | ⟨0, _⟩ => rfl
    | ⟨1, _⟩ => rfl
    | ⟨2, _⟩ => rfl))

/-- The last 640 columns of the concatenated input at `(b, t, u)` are the predictor frame `tgt[b, u, :]`, whatever `t`. -/
theorem concat_hi (b : Fin 8) (t : Fin 256) (u : Fin 64) (d : Fin 640) :
    val_main_v4 (F := Ideal) x0 x2 (ix4 b t u (Cert.Joint.hi d)) = x2 (ix3 b u d) := by
  unfold val_main_v4
  refine (concatenate_pair_apply_right (t := S8x256x64x1280) (s₁ := S8x256x64x640) (s₂ := S8x256x64x640) 3 _ _ _ (ix4 b t u (Cert.Joint.hi d)) rfl rfl (ix4 b t u d) (fun a ha => by
    match a with
    | ⟨0, _⟩ => rfl
    | ⟨1, _⟩ => rfl
    | ⟨2, _⟩ => rfl
    | ⟨3, _⟩ => exact absurd rfl ha) (by show d.val + 640 = 640 + d.val; omega)).trans ?_
  rw [val_main_v3_apply, val_main_v2_apply]
  exact congrArg x2 (funext fun a => Fin.ext (by
    match a with
    | ⟨0, _⟩ => rfl
    | ⟨1, _⟩ => rfl
    | ⟨2, _⟩ => rfl))

/-- Row `r` of the flattened input is the concatenated frame of `(b, t, u)` with `r = (b · 256 + t) · 64 + u`. -/
theorem flat_apply (r : Fin 131072) (k : Fin 1280) :
    val_main_v5 (F := Ideal) x0 x2 (ix2 r k)
      = val_main_v4 (F := Ideal) x0 x2 (ix4 (⟨r.val / 16384, by have := r.isLt; omega⟩ : Fin 8)
          (⟨r.val / 64 % 256, Nat.mod_lt _ (by decide)⟩ : Fin 256) (⟨r.val % 64, Nat.mod_lt _ (by decide)⟩ : Fin 64) k) := by
  rw [val_main_v5_apply]
  refine congrArg (val_main_v4 (F := Ideal) x0 x2) (funext fun a => Fin.ext ?_)
  have hr := r.isLt
  have hk := k.isLt
  match a with
  | ⟨0, _⟩ => show (r.val * 1280 + k.val) / 20971520 = r.val / 16384; omega
  | ⟨1, _⟩ => show (r.val * 1280 + k.val) / 81920 % 256 = r.val / 64 % 256; omega
  | ⟨2, _⟩ => show (r.val * 1280 + k.val) / 1280 % 64 = r.val % 64; omega
  | ⟨3, _⟩ => show (r.val * 1280 + k.val) % 1280 = k.val; omega

/-- The reference's result: the joint output with its first three axes flattened. -/
theorem result_eq : val_main_v11 (F := Ideal) x0 x2 x4 x5 = Cert.Joint.out2 x0 x2 x4 x5 := by
  funext i
  obtain ⟨r, v, rfl⟩ : ∃ (r : Fin 131072) (v : Fin 1024), i = ix2 r v := ⟨i 0, i 1, eq_ix2 i⟩
  rw [val_main_v11_apply, val_main_v8_apply, val_main_v10_apply, val_main_v9_apply]
  have hb : idx_main_v9 (idx_main_v10 (ix2 r v)) = ix1 v := funext fun a => Fin.ext (by
    match a with
    | ⟨0, _⟩ => rfl)
  rw [hb]
  unfold Cert.Joint.out2 Cert.Joint.at4
  show (∑ k : Fin 1280, val_main_v6 (F := Ideal) x0 x2 (lidx_main_v8 (ix2 r v) k) * val_main_v7 (F := Ideal) x4 (ridx_main_v8 (ix2 r v) k))
      + x5 (ix1 v) = _
  refine congrArg (· + x5 (ix1 v)) ?_
  refine (Finset.sum_congr rfl fun k _ => ?_).trans
    (Cert.Joint.whole_sum x0 x2 x4 _ _ _ v (fun k => val_main_v5 (F := Ideal) x0 x2 (ix2 r k))
      (fun d => by rw [flat_apply, concat_lo]) (fun d => by rw [flat_apply, concat_hi]))
  have el : lidx_main_v8 (ix2 r v) k = ix2 r k := funext fun a => Fin.ext (by
    match a with
    | ⟨0, _⟩ => rfl
    | ⟨1, _⟩ => rfl)
  have er : idx_main_v7 (ridx_main_v8 (ix2 r v) k) = ix2 v k := funext fun a => Fin.ext (by
    match a with
    | ⟨0, _⟩ => rfl
    | ⟨1, _⟩ => rfl)
  rw [val_main_v6_apply, val_main_v7_apply, el, er, val_main_call0_v0_apply, val_main_call0_cst_apply]
  rfl

end Cert.ReferenceIdeal.JointValue

end
-- ==== Proof.lean ====
/-
  A fused joiner of a transducer against its plain formulation, over the extended reals.

  The reference forms, for every batch entry `b`, encoder frame `t` and predictor frame `u`, the 1280 numbers
  `[src[b, t, :], tgt[b, u, :]]`, rectifies them, multiplies by `Wᵀ` and adds `bias`: entry `(b, t, u, v)` is
  `∑_{k < 1280} max(x_k, 0) · W[v, k] + bias[v]`. The kernel never builds the 1280-vectors: since the rectifier acts
  entry by entry, the sum over `k` is the sum over the encoder half plus the sum over the predictor half,
      enc(b, t, v) = ∑_{d < 640} max(src[b, t, d], 0) · W[v, d],
      pred(b, u, v) = ∑_{d < 640} max(tgt[b, u, d], 0) · W[v, 640 + d],
  and the kernel computes `pred` once per batch entry (into a scratch buffer, at the first of the batch entry's eight
  grid points), `enc` once per grid point (32 encoder frames), and writes `enc + pred + bias` for all 32 × 64 × 1024
  entries of the point's output block. Splitting a finite sum into two consecutive stretches uses only that addition of
  extended reals is commutative and associative, so the two programs agree on every input, finite or not: the
  precondition is never opened. At the ideal values the kernel's narrowing of its matrix operands to a 16-bit format
  is the identity and its matrix products are exact sums, so nothing else separates the two sides.

  The modules: `Spec` (the joint output as one function, and the splitting of the sum), `Pieces` / `Payload` /
  `Blocks` (what one grid point stores, entry by entry, in terms of the arguments), `Points` (the induction over the
  grid points that carries the scratch), `KernelValue` (the blocks tile the output array; the final reshape),
  `RefValue` (the reference's operations read at an index), and the assembly below.
-/
import proofs.«108868_j83133386981839_2_alg».proof.Defs
import proofs.«108868_j83133386981839_2_alg».proof.Proof.Gen.Kernel
import proofs.«108868_j83133386981839_2_alg».proof.Proof.Gen.Kernel.Frame
import proofs.«108868_j83133386981839_2_alg».proof.Proof.Gen.KernelIdeal
import proofs.«108868_j83133386981839_2_alg».proof.Proof.Gen.KernelIdeal.Frame
import proofs.«108868_j83133386981839_2_alg».proof.Proof.Gen.ReferenceIdeal
import proofs.«108868_j83133386981839_2_alg».proof.Proof.Gen.Pre_finite_inputs
import proofs.«108868_j83133386981839_2_alg».proof.Proof.Gen.ReferenceIdeal.Run
import proofs.«108868_j83133386981839_2_alg».proof.Proof.Gen.ReferenceIdeal.Read
import proofs.«108868_j83133386981839_2_alg».proof.Proof.KernelValue
import proofs.«108868_j83133386981839_2_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: it terminates, and none of them writes an argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories that agree on the arguments both programs end with the joint output of those arguments: the kernel
    by the tiling of its output array, the reference by the splitting of its 1280-term sums. The two length vectors are
    returned as they came. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Joint.out2 (Cert.KernelIdeal.Points.src m c) (Cert.KernelIdeal.Points.tgt m c)
      (Cert.KernelIdeal.Points.wgt m c) (Cert.KernelIdeal.Points.bias m c),
    fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg3),
    Cert.KernelIdeal.JointValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans a1, (h c).2.2.1.trans a3, (h c).2.2.2⟩
  rw [Cert.ReferenceIdeal.Read.val_main_v11_eq, Cert.ReferenceIdeal.JointValue.result_eq, a0, a2, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
